-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2049 : Shape := ⟨2, ![8192, 2049]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2049 : S_.BroadcastsInDim S8192x2049 (![] : Fin 0 → Fin S8192x2049.rank)
  reducesTo_S8192x2049_S_d0_1 : S8192x2049.ReducesTo [0, 1] S_

variable [Facts]

def fn {F : FTy → Type} [FloatOps F] (main_arg0 : FVec F S4096x2048 .f32) (main_arg1 : FVec F S8192x2049 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2049 .f32 := Host.absf main_arg1
  let main_cst_0 : FVec F S_ .f32 := constant S_ .f32 0x7F800000#32
  let main_v5 : FVec F S8192x2049 .f32 := broadcastInDim S8192x2049 ![] bcast_S_S8192x2049 main_cst_0
  let main_v6 : IVec S8192x2049 1 := cmpf .olt main_v4 main_v5
  let main_c_1 : IVec S_ 1 := constantI S_ 1 1#1
  let main_v7 : IVec S_ 1 := (fun x v => Host.reduce IntOp.andi x v reducesTo_S8192x2049_S_d0_1 h_S_) main_v6 main_c_1
  let main_v8 : IVec S_ 1 := andi main_v3 main_v7
  main_v8
-- ==== Kernel.lean ====
abbrev S4096x2048 : Shape := ⟨2, ![4096, 2048]⟩
abbrev S8192x2049 : Shape := ⟨2, ![8192, 2049]⟩
abbrev S8192x1 : Shape := ⟨2, ![8192, 1]⟩
abbrev S8192 : Shape := ⟨1, ![8192]⟩
abbrev S1x8192 : Shape := ⟨2, ![1, 8192]⟩
abbrev S4096x8192 : Shape := ⟨2, ![4096, 8192]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S8192x2049, .f32⟩
  | .hbm, ⟨2, _⟩ => ⟨S8192x1, .f32⟩
  | .hbm, ⟨3, _⟩ => ⟨S8192, .f32⟩
  | .hbm, ⟨4, _⟩ => ⟨S1x8192, .f32⟩
  | .hbm, ⟨5, _⟩ => ⟨S4096x8192, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8192x2049_S8192x1_0_2048 : S8192x2049.Slices ![0, 2048] S8192x1
  shapeCasts_S8192x1_S8192 : S8192x1.ShapeCasts S8192
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x2048.size a < S8192x2049.size a
  hwx0_1 : ∀ i : grid0.Coords, EltTy.bits .f32 = 32 ∨ (Rect.unit (s := S8192x2049) (fun a => cc0_transform_1 i a * S512x2048.size a) (fun a => (Pipeline.Clip.of (cc0_transform_1 i a) (S512x2048.size a) (S8192x2049.size a)).extent (S512x2048.size a)) fun a => Pipeline.Clip.inb (Pipeline.Clip.ok_of (hstart0_1 i a))).WholeWords (EltTy.packing .f32)
  hwxs0_1 : ∀ i : grid0.Coords, EltTy.bits .f32 = 32 ∨ (Rect.unit (s := S512x2048) (fun _ => 0) (fun a => (Pipeline.Clip.of (cc0_transform_1 i a) (S512x2048.size a) (S8192x2049.size a)).extent (S512x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x8192.size a
  hwx0_3 : ∀ i : grid0.Coords, EltTy.bits .f32 = 32 ∨ (Rect.block (s := S4096x8192) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2049 : Shape := ⟨2, ![8192, 2049]⟩
abbrev S8192x2048 : Shape := ⟨2, ![8192, 2048]⟩
abbrev S8192x1 : Shape := ⟨2, ![8192, 1]⟩
abbrev S8192 : Shape := ⟨1, ![8192]⟩
abbrev S4096x8192 : Shape := ⟨2, ![4096, 8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2049, .f32⟩
  | .hbm, ⟨2, _⟩ => ⟨S8192x2048, .f32⟩
  | .hbm, ⟨3, _⟩ => ⟨S8192x1, .f32⟩
  | .hbm, ⟨4, _⟩ => ⟨S8192, .f32⟩
  | .hbm, ⟨5, _⟩ => ⟨S4096x8192, .f32⟩
  | .hbm, ⟨6, _⟩ => ⟨S1x8192, .f32⟩
  | .hbm, ⟨7, _⟩ => ⟨S4096x8192, .f32⟩
  | .hbm, ⟨8, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  slices_S8192x2049_S8192x2048_0_0 : S8192x2049.Slices ![0, 0] S8192x2048
  slices_S8192x2049_S8192x1_0_2048 : S8192x2049.Slices ![0, 2048] S8192x1
  shapeCasts_S8192x1_S8192 : S8192x1.ShapeCasts S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.FrameK.lean ====
/-
  The frame of the kernel program, by hand on the generated launch side: the linear layer's body at one grid point
  (three whole-buffer loads, one product into a zero accumulator, one broadcast sum, one whole-buffer store), the
  proof data of its one pipeline, and the run that leaves every argument array as it was found.

  The weight window reads (512, 2048) blocks out of an (8192, 2049) array: 2048 does not divide 2049, so the window is
  one whose blocks MAY be cut at the array's end. They never are: the block index on the column axis is always 0
  and 0 + 2048 ≤ 2049, and on the row axis 512 divides 8192 (`clip1_none`). A fetch therefore fills the whole
  staging buffer with the block, whatever it held (`fill_irrel`), and what the body stores into the result's buffer
  is one fixed function of the three blocks at the point (`outBlock`).
-/
import proofs.«170033_j4114578669651_2_alg».proof.Proof.Gen.Kernel.Frame
import proofs.«170033_j4114578669651_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The weight window is never cut -/

/-- At every grid point and on both axes the weight block ends inside the array: rows (j+1)·512 ≤ 8192 for j < 16,
    columns 2048 ≤ 2049. -/
theorem clip1_none : ∀ (i : grid0.Coords) (a : Fin 2), win0_1.clip i a = none := by decide +kernel

/-- So filling the weight window's buffer with a block leaves nothing of what the buffer held. -/
theorem fill_irrel (i : grid0.Coords) {α : Type} (d d' : S512x2048.Idx → α) (g : (win0_1.xblock i).Idx → α) :
    win0_1.fill i d g = win0_1.fill i d' g :=
  Pipeline.fill_of_clip_none (cfg := cfg0) (1 : Fin 4) i (clip1_none i) d d' g

/-! ## The body's accesses and what it leaves in the result's buffer -/

abbrev rA : Rect S1024x2048 := Rect.unit (s := S1024x2048) ![0, 0] S1024x2048.size inb_S1024x2048_S1024x2048_0_0
abbrev rB : Rect S512x2048 := Rect.unit (s := S512x2048) ![0, 0] S512x2048.size inb_S512x2048_S512x2048_0_0
abbrev rC : Rect S1x512 := Rect.unit (s := S1x512) ![0, 0] S1x512.size inb_S1x512_S1x512_0_0
abbrev rO : Rect S1024x512 := Rect.unit (s := S1024x512) ![0, 0] S1024x512.size inb_S1024x512_S1024x512_0_0

/-- The result's staging buffer after the body, from the three input buffers' contents: its one store, of the
    product-plus-bias of what the three loads read. -/
def outBlock (x0 : Vec F S1024x2048 .f32) (x1 : Vec F S512x2048 .f32) (x2 : Vec F S1x512 .f32) : Vec F S1024x512 .f32 :=
  View.canon [⟨rO, k0_pay1 (View.ld x0 rA) (View.ld x1 rB) (View.ld x2 rC)⟩]

/-- The store's rectangle is the whole buffer. -/
theorem coverO (p0 : Vec F S1024x512 .f32) (y : S1024x512.Idx) :
    ∃ pc ∈ ([⟨rO, p0⟩] : List (View.Piece (Elt F) S1024x512 .f32)), y ∈ pc.1.set :=
  View.cover_of_tiled [⟨rO, p0⟩] S1024x512.size (by rfl) y

/-! ## The body's triple -/

set_option maxHeartbeats 1000000 in
/-- The body on whole staging memrefs, the inputs' at read contents `x0`, `x1`, `x2` and the result's at anything,
    runs to the continuation holding the inputs' as they were and the result's at `outBlock` of them. -/
theorem sound_kernel (c : Dev nD) (E : Set ℕ) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0_linear_kernel i arg2 harg2 arg3 harg3 arg4 harg4 arg5 harg5) K := by
  simp only [cc0_linear_kernel_eq_skeleton]; unfold cc0_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The pipeline's proof data -/

/-- The weight block at point `t` laid into its staging buffer (the filler is never seen: `fill_irrel`). -/
def wblk (c : Dev nD) (t : Fin cfg0.N) : S512x2048.Idx → Elt F .f32 :=
  win0_1.fill (grid0.coords t) (fun _ => Scalar.ofBits .f32 0#32) (iblk m c 1 t)

/-- The proof data of the one pipeline on core `c`: the arrays as the region finds them; after the body at point
    `t` each input's buffer at its block and the result's at `outBlock` of the three; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => outBlock (iblk m c 0 t) (wblk m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (wblk m c t) (iblk m c 2 t) := by dsimp only [dats]

/-- The input and bias windows' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The weight window is fetched at every point, and the fetch fills the whole buffer: it holds the block. -/
theorem before0_1 (c : Dev nD) (t : Fin cfg0.N) (d) : (dats m 0 c).before 1 t d = wblk m c t := by
  rw [(dats m 0 c).before_fetched 1 t (fetch0_1 t) d]
  unfold Dat.fetched Dat.blockOf wblk iblk
  rw [A_eq]
  exact fill_irrel (grid0.coords t) _ _ _

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the weight window's buffer stated on the part its transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t))

/-- The body at any point: the three inputs' memrefs hold their blocks, so `sound_kernel` applies; the invariant
    and the core's dues pass through unread. The weight window's buffer is handed back as found, which filled with
    its own moved part is itself. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (wblk m c t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists wblk m c t
    rw [win0_1.fill_cut]
    iexact H1
  isplitl [H2]; · iexact H2
  iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the write-backs of the proof data's
    blocks leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.FrameKI.lean ====
/-
  The frame of the kernel program, by hand on the generated launch side: the linear layer's body at one grid point
  (three whole-buffer loads, one product into a zero accumulator, one broadcast sum, one whole-buffer store), the
  proof data of its one pipeline, and the run that leaves every argument array as it was found.

  The weight window reads (512, 2048) blocks out of an (8192, 2049) array: 2048 does not divide 2049, so the window is
  one whose blocks MAY be cut at the array's end. They never are: the block index on the column axis is always 0
  and 0 + 2048 ≤ 2049, and on the row axis 512 divides 8192 (`clip1_none`). A fetch therefore fills the whole
  staging buffer with the block, whatever it held (`fill_irrel`), and what the body stores into the result's buffer
  is one fixed function of the three blocks at the point (`outBlock`).
-/
import proofs.«170033_j4114578669651_2_alg».proof.Proof.Gen.KernelIdeal.Frame
import proofs.«170033_j4114578669651_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The weight window is never cut -/

/-- At every grid point and on both axes the weight block ends inside the array: rows (j+1)·512 ≤ 8192 for j < 16,
    columns 2048 ≤ 2049. -/
theorem clip1_none : ∀ (i : grid0.Coords) (a : Fin 2), win0_1.clip i a = none := by decide +kernel

/-- So filling the weight window's buffer with a block leaves nothing of what the buffer held. -/
theorem fill_irrel (i : grid0.Coords) {α : Type} (d d' : S512x2048.Idx → α) (g : (win0_1.xblock i).Idx → α) :
    win0_1.fill i d g = win0_1.fill i d' g :=
  Pipeline.fill_of_clip_none (cfg := cfg0) (1 : Fin 4) i (clip1_none i) d d' g

/-! ## The body's accesses and what it leaves in the result's buffer -/

abbrev rA : Rect S1024x2048 := Rect.unit (s := S1024x2048) ![0, 0] S1024x2048.size inb_S1024x2048_S1024x2048_0_0
abbrev rB : Rect S512x2048 := Rect.unit (s := S512x2048) ![0, 0] S512x2048.size inb_S512x2048_S512x2048_0_0
abbrev rC : Rect S1x512 := Rect.unit (s := S1x512) ![0, 0] S1x512.size inb_S1x512_S1x512_0_0
abbrev rO : Rect S1024x512 := Rect.unit (s := S1024x512) ![0, 0] S1024x512.size inb_S1024x512_S1024x512_0_0

/-- The result's staging buffer after the body, from the three input buffers' contents: its one store, of the
    product-plus-bias of what the three loads read. -/
def outBlock (x0 : Vec F S1024x2048 .f32) (x1 : Vec F S512x2048 .f32) (x2 : Vec F S1x512 .f32) : Vec F S1024x512 .f32 :=
  View.canon [⟨rO, k0_pay1 (View.ld x0 rA) (View.ld x1 rB) (View.ld x2 rC)⟩]

/-- The store's rectangle is the whole buffer. -/
theorem coverO (p0 : Vec F S1024x512 .f32) (y : S1024x512.Idx) :
    ∃ pc ∈ ([⟨rO, p0⟩] : List (View.Piece (Elt F) S1024x512 .f32)), y ∈ pc.1.set :=
  View.cover_of_tiled [⟨rO, p0⟩] S1024x512.size (by rfl) y

/-! ## The body's triple -/

set_option maxHeartbeats 1000000 in
/-- The body on whole staging memrefs, the inputs' at read contents `x0`, `x1`, `x2` and the result's at anything,
    runs to the continuation holding the inputs' as they were and the result's at `outBlock` of them. -/
theorem sound_kernel (c : Dev nD) (E : Set ℕ) (i : grid0.Coords)
    (arg2 : Memref sig .tc .vmem S1024x2048 .f32) (harg2 : arg2.IsWhole) (arg3 : Memref sig .tc .vmem S512x2048 .f32) (harg3 : arg3.IsWhole)
    (arg4 : Memref sig .tc .vmem S1x512 .f32) (harg4 : arg4.IsWhole) (arg5 : Memref sig .tc .vmem S1024x512 .f32) (harg5 : arg5.IsWhole)
    (x0 : Vec F S1024x2048 .f32) (x1 : Vec F S512x2048 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0_linear_kernel i arg2 harg2 arg3 harg3 arg4 harg4 arg5 harg5) K := by
  simp only [cc0_linear_kernel_eq_skeleton]; unfold cc0_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The pipeline's proof data -/

/-- The weight block at point `t` laid into its staging buffer (the filler is never seen: `fill_irrel`). -/
def wblk (c : Dev nD) (t : Fin cfg0.N) : S512x2048.Idx → Elt F .f32 :=
  win0_1.fill (grid0.coords t) (fun _ => Scalar.ofBits .f32 0#32) (iblk m c 1 t)

/-- The proof data of the one pipeline on core `c`: the arrays as the region finds them; after the body at point
    `t` each input's buffer at its block and the result's at `outBlock` of the three; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => outBlock (iblk m c 0 t) (wblk m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (wblk m c t) (iblk m c 2 t) := by dsimp only [dats]

/-- The input and bias windows' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The weight window is fetched at every point, and the fetch fills the whole buffer: it holds the block. -/
theorem before0_1 (c : Dev nD) (t : Fin cfg0.N) (d) : (dats m 0 c).before 1 t d = wblk m c t := by
  rw [(dats m 0 c).before_fetched 1 t (fetch0_1 t) d]
  unfold Dat.fetched Dat.blockOf wblk iblk
  rw [A_eq]
  exact fill_irrel (grid0.coords t) _ _ _

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the weight window's buffer stated on the part its transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t))

/-- The body at any point: the three inputs' memrefs hold their blocks, so `sound_kernel` applies; the invariant
    and the core's dues pass through unread. The weight window's buffer is handed back as found, which filled with
    its own moved part is itself. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (wblk m c t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists wblk m c t
    rw [win0_1.fill_cut]
    iexact H1
  isplitl [H2]; · iexact H2
  iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the write-backs of the proof data's
    blocks leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BlockValue.lean ====
/-
  What the body stores at one grid point, read at an entry: of an input block x0 (1024 rows of 2048 features), a
  weight block x1 (512 rows of 2048 features) and a bias row x2 (1 by 512), entry (p, q) of the stored block is the sum
  over the features k of x0[p, k] · x1[q, k], plus x2[0, q]. Over the extended reals the two roundings to bf16 on
  the way into the product are the identity, the product into a zero accumulator is the plain sum of products
  contracted over axis 1 of both operands, and the bias row is repeated down the 1024 rows.
-/
import proofs.«170033_j4114578669651_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Linear.Block

open Cert.KernelIdeal Cert.KernelIdeal.Gen
open Idealize.ShloMosaic Idealize.ShloMosaic.ValueIdx

/-- The body's contraction record: axis 1 of the left operand against axis 1 of the right. -/
abbrev D : DotDims S1024x2048 S512x2048 S1024x512 := dot_S1024x2048_S512x2048_S1024x512_1_1_0_0_n_n

theorem lhs_0 (i : S1024x512.Idx) (r : D.contr.Idx) : (D.lhsIdx i r 0).val = (i 0).val := by
  unfold DotDims.lhsIdx
  rw [dif_neg (show ¬(0 : Fin S1024x2048.rank) ∈ D.lhsBatch by decide), dif_pos (show (0 : Fin S1024x2048.rank) ∈ D.lhsNonContracting by decide)]
  rfl
theorem lhs_1 (i : S1024x512.Idx) (r : D.contr.Idx) : (D.lhsIdx i r 1).val = (r ⟨0, by decide⟩).val :=
  D.lhsIdx_val_of_single rfl i r
theorem rhs_0 (i : S1024x512.Idx) (r : D.contr.Idx) : (D.rhsIdx i r 0).val = (i 1).val := by
  unfold DotDims.rhsIdx
  rw [dif_neg (show ¬(0 : Fin S512x2048.rank) ∈ D.rhsBatch by decide), dif_pos (show (0 : Fin S512x2048.rank) ∈ D.rhsNonContracting by decide)]
  rfl
theorem rhs_1 (i : S1024x512.Idx) (r : D.contr.Idx) : (D.rhsIdx i r 1).val = (r ⟨0, by decide⟩).val :=
  D.rhsIdx_val_of_single rfl i r

/-- The product into a zero accumulator at entry (p, q): the sum over the features. -/
theorem product_apply (a : FVec Ideal S1024x2048 .bf16) (b : FVec Ideal S512x2048 .bf16) (p : Fin 1024) (q : Fin 512) :
    matmul (F := Ideal) D none a b (constant S1024x512 .f32 0x00000000#32) (ix2 p q)
      = ∑ k : Fin 2048, a (ix2 p k) * b (ix2 q k) := by
  refine (Ideal.matmul_constant_zero_apply D none a b (ix2 p q)).trans ?_
  rw [← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 2048 rfl rfl).symm k) = ix2 q k := funext fun a => Fin.ext (by
    match a with
    | ⟨0, _⟩ => exact rhs_0 _ _
    | ⟨1, _⟩ => exact (rhs_1 _ _).trans hk)
  rw [el, er]

/-- The bias row repeated down the rows, at entry (p, q): the row's entry q. -/
theorem bias_apply (x2 : Vec Ideal S1x512 .f32) (p : Fin 1024) (q : Fin 512) :
    broadcastTo S1024x512 (shapeCast S1x512 x2 shapeCasts_S1x512_S1x512) broadcasts_S1x512_S1024x512 (ix2 p q)
      = x2 (ix2 (0 : Fin 1) q) := by
  rw [shapeCast_self]
  exact broadcastTo_apply x2 broadcasts_S1x512_S1024x512 (ix2 p q) (ix2 (0 : Fin 1) q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- The stored block at entry (p, q). -/
theorem pay_apply (x0 : Vec Ideal S1024x2048 .f32) (x1 : Vec Ideal S512x2048 .f32) (x2 : Vec Ideal S1x512 .f32)
    (p : Fin 1024) (q : Fin 512) :
    k0_pay1 (F := Ideal) x0 x1 x2 (ix2 p q) = (∑ k : Fin 2048, x0 (ix2 p k) * x1 (ix2 q k)) + x2 (ix2 (0 : Fin 1) q) := by
  unfold k0_pay1
  show matmul (F := Ideal) D none (truncf .bf16 x0 bitsLt_bf16_f32) (truncf .bf16 x1 bitsLt_bf16_f32) (constant S1024x512 .f32 0x00000000#32) (ix2 p q)
      + broadcastTo S1024x512 (shapeCast S1x512 x2 shapeCasts_S1x512_S1x512) broadcasts_S1x512_S1024x512 (ix2 p q) = _
  refine congrArg₂ (· + ·) ((product_apply _ _ p q).trans ?_) (bias_apply x2 p q)
  rfl

end Cert.Linear.Block

end
-- ==== Proof.LinearSpec.lean ====
/-
  The linear layer as one function of its two argument arrays over the extended reals, index by index:
  entry (p, q) of the result is the sum over the 2048 input features k of x[p, k] · w[q, k], plus the bias w[q, 2048],
  the last column of the same (8192, 2049) parameter matrix.
-/
import Idealize.ShloMosaic.PureOps.Ideal
import Idealize.ShloMosaic.Lib.ValueIdx

noncomputable section

namespace Cert.Linear

open Idealize.ShloMosaic Idealize.ShloMosaic.ValueIdx

/-- Feature k as a column of the 2049-column parameter matrix. -/
abbrev wcol (k : Fin 2048) : Fin 2049 := ⟨k.val, Nat.lt_succ_of_lt k.isLt⟩
/-- The bias column, the last one. -/
abbrev bcol : Fin 2049 := ⟨2048, Nat.lt_succ_self 2048⟩

/-- Entry (p, q): the row of x against the row of w over the features, plus the row's bias. -/
def Gat (x : (⟨2, ![4096, 2048]⟩ : Shape).Idx → EReal) (w : (⟨2, ![8192, 2049]⟩ : Shape).Idx → EReal)
    (p : Fin 4096) (q : Fin 8192) : EReal :=
  (∑ k : Fin 2048, x (ix2 p k) * w (ix2 q (wcol k))) + w (ix2 q bcol)

/-- The whole result array. -/
def G (x : (⟨2, ![4096, 2048]⟩ : Shape).Idx → EReal) (w : (⟨2, ![8192, 2049]⟩ : Shape).Idx → EReal) :
    (⟨2, ![4096, 8192]⟩ : Shape).Idx → EReal :=
  fun i => Gat x w ⟨(i 0).val, (i 0).isLt⟩ ⟨(i 1).val, (i 1).isLt⟩

theorem G_ix2 (x : (⟨2, ![4096, 2048]⟩ : Shape).Idx → EReal) (w : (⟨2, ![8192, 2049]⟩ : Shape).Idx → EReal)
    (p : Fin 4096) (q : Fin 8192) : G x w (ix2 p q) = Gat x w p q := rfl

end Cert.Linear

end
-- ==== Proof.KernelValue.lean ====
/-
  The kernel program's result array after its run, as one function of the argument arrays: the linear layer's `G`.
  Grid point t = (i, j) stages rows 1024·i … of the input, rows 512·j … of the parameter matrix (its first 2048
  columns) and entries 512·j … of the bias row — the matrix's last column, sliced and reshaped by the host before the
  region —, and writes back block (i, j) of the result; the 4 × 16 blocks tile the (4096, 8192) array.
-/
import proofs.«170033_j4114578669651_2_alg».proof.Proof.FrameKI
import proofs.«170033_j4114578669651_2_alg».proof.Proof.BlockValue
import proofs.«170033_j4114578669651_2_alg».proof.Proof.LinearSpec
import Idealize.ShloMosaic.Lib.Pipeline.Value
import Idealize.ShloMosaic.Lib.StableHlo.Run

set_option maxRecDepth 16384

noncomputable section

namespace Cert.Linear.KVal

open Cert.KernelIdeal Cert.KernelIdeal.Gen Cert.KernelIdeal.Body Cert.Linear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One stored block is a block of `G` -/

/-- Over any arrays X (input), W (parameters) and B (bias row) with B[0, q] = W[q, 2048]: if x0, x1, x2 are the
    blocks of X, W, B at block offsets (i0, ·), (j0, ·), (·, j0), the stored block at (p, q) is `G X W` at
    (1024·i0 + p, 512·j0 + q). -/
theorem block_eq_G (X : S4096x2048.Idx → EReal) (W : S8192x2049.Idx → EReal) (B : S1x8192.Idx → EReal)
    (hB : ∀ q : Fin 8192, B (ix2 (0 : Fin 1) q) = W (ix2 q bcol))
    (i0 j0 : Nat) (p : Fin 1024) (q : Fin 512) (hp : i0 * 1024 + p.val < 4096) (hq : j0 * 512 + q.val < 8192)
    (x0 : Vec Ideal S1024x2048 .f32) (x1 : Vec Ideal S512x2048 .f32) (x2 : Vec Ideal S1x512 .f32)
    (h0 : ∀ k : Fin 2048, x0 (ix2 p k) = X (ix2 ⟨i0 * 1024 + p.val, hp⟩ k))
    (h1 : ∀ k : Fin 2048, x1 (ix2 q k) = W (ix2 ⟨j0 * 512 + q.val, hq⟩ (wcol k)))
    (h2 : x2 (ix2 (0 : Fin 1) q) = B (ix2 (0 : Fin 1) ⟨j0 * 512 + q.val, hq⟩)) :
    k0_pay1 (F := Ideal) x0 x1 x2 (ix2 p q) = G X W (ix2 ⟨i0 * 1024 + p.val, hp⟩ ⟨j0 * 512 + q.val, hq⟩) := by
  rw [Block.pay_apply, G_ix2, h2, hB]
  unfold Gat
  simp only [h0, h1]

/-! ## The arrays the region finds -/

/-- The bias row as the region finds it: the host's slice of column 2048, reshaped to a vector, reshaped to a row. -/
theorem V_bias_row (c : Dev nD) : (V m c main_v2 : S1x8192.Idx → EReal)
    = shapeCast S1x8192 (shapeCast S8192 (extractStridedSlice S8192x1 ![0, 2048] (m ((c : Thread nD τ).loc main_arg1))
        slices_S8192x2049_S8192x1_0_2048) shapeCasts_S8192x1_S8192) shapeCasts_S8192_S1x8192 := by
  dsimp only [Gen.V, Gen.hostOps0]; after_results; rfl

/-- Its entry q is the parameter matrix's entry (q, 2048). -/
theorem V_bias_apply (c : Dev nD) (q : Fin 8192) :
    V m c main_v2 (ix2 (0 : Fin 1) q) = V m c main_arg1 (ix2 q bcol) := by
  rw [V_bias_row, V_main_arg1]
  refine (shapeCast_apply _ shapeCasts_S8192_S1x8192 (ix2 (0 : Fin 1) q) (ix1 q) ?_).trans ?_
  · rw [Shape.rowMajor_val_two, Shape.rowMajor_val_one]; show q.val = 0 * 8192 + q.val; omega
  refine (shapeCast_apply _ shapeCasts_S8192x1_S8192 (ix1 q) (ix2 q (0 : Fin 1)) ?_).trans ?_
  · rw [Shape.rowMajor_val_two, Shape.rowMajor_val_one]; show q.val * 1 + 0 = q.val; omega
  exact extractStridedSlice_apply ![0, 2048] _ slices_S8192x2049_S8192x1_0_2048 (ix2 q (0 : Fin 1)) (ix2 q bcol) (fun a => by
    match a with
    | ⟨0, _⟩ => show q.val = 0 + q.val; omega
    | ⟨1, _⟩ => show 2048 = 2048 + 0; rfl)

/-! ## The blocks at a point -/

theorem hz : (![0, 0] : Fin 2 → Nat) = fun _ => 0 := funext fun a => by fin_cases a <;> rfl

/-- The printed index maps over the grid: the input moves with the result's row blocks, the parameter matrix and
    the bias row with its column blocks, and every other block index is 0. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 4 ∧ win0_3.index t (1 : Fin 2) < 16 :=
  (by decide +kernel : ∀ t : Fin grid0.N, _)

/-- Every block of the result is some point's. -/
theorem idx_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-- The input block at a point, read where the result's block says. -/
theorem iblk0_apply (c : Dev nD) (t : Fin cfg0.N) (p : Fin 1024) (k : Fin 2048)
    (hp : win0_3.index t (0 : Fin 2) * 1024 + p.val < 4096) :
    iblk m c 0 t (ix2 p k) = V m c main_arg0 (ix2 ⟨win0_3.index t (0 : Fin 2) * 1024 + p.val, hp⟩ k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = win0_3.index t (0 : Fin 2) * 1024 + p.val; omega
  | ⟨1, _⟩ => show win0_0.index t (1 : Fin 2) * 2048 + 1 * k.val = k.val; omega

/-- The bias block at a point. -/
theorem iblk2_apply (c : Dev nD) (t : Fin cfg0.N) (q : Fin 512)
    (hq : win0_3.index t (1 : Fin 2) * 512 + q.val < 8192) :
    iblk m c 2 t (ix2 (0 : Fin 1) q) = V m c main_v2 (ix2 (0 : Fin 1) ⟨win0_3.index t (1 : Fin 2) * 512 + q.val, hq⟩) := by
  obtain ⟨-, -, -, -, e4, e5, -⟩ := idx_facts t
  show V m c main_v2 (((cfg0.win 2).blk t).view.emb (ix2 (0 : Fin 1) q)) = _
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 512 + 1 * q.val = win0_3.index t (1 : Fin 2) * 512 + q.val; omega

/-- The weight block at a point: the fetch moved every entry of it (the window is never cut), and column k of the
    block is column k of the 2049-column matrix. -/
theorem wblk_apply (c : Dev nD) (t : Fin cfg0.N) (q : Fin 512) (k : Fin 2048)
    (hq : win0_3.index t (1 : Fin 2) * 512 + q.val < 8192) :
    wblk m c t (ix2 q k) = V m c main_arg1 (ix2 ⟨win0_3.index t (1 : Fin 2) * 512 + q.val, hq⟩ (wcol k)) := by
  obtain ⟨-, -, e2, e3, -⟩ := idx_facts t
  have hm : win0_1.moved (grid0.coords t) (ix2 q k) = true :=
    (win0_1.moved_iff _ _).mpr fun a => by
      have := (ix2 q k a).isLt
      unfold Pipeline.Window.xsize; rw [clip1_none]; exact this
  unfold wblk Pipeline.Window.fill
  rw [dif_pos hm]
  show V m c main_arg1 (((cfg0.win 1).blk t).view.emb _) = _
  refine congrArg (V m c main_arg1) (funext fun a => Fin.ext ?_)
  match a with
  | ⟨0, _⟩ => show win0_1.index t (0 : Fin 2) * 512 + 1 * q.val = win0_3.index t (1 : Fin 2) * 512 + q.val; omega
  | ⟨1, _⟩ => show win0_1.index t (1 : Fin 2) * 2048 + 1 * k.val = k.val; omega

/-! ## What a point writes back, the cover, and the array after the run -/

/-- What point `t` writes back is block `t` of `G` of the argument arrays as the region finds them. -/
theorem flushed_eq (c : Dev nD) (t : Fin cfg0.N) :
    (dats m 0 c).flushed 3 t = ((cfg0.win 3).blk t).view.read (Elt Ideal) (G (V m c main_arg0) (V m c main_arg1)) := by
  show (cfg0.win 3).cut (grid0.coords t) ((dats m 0 c).after 3 t) = _
  rw [after0_3]
  unfold outBlock
  rw [View.canon_unit_zero hz]
  simp only [View.ld_unit_zero (S := S1024x2048) hz, View.ld_unit_zero (S := S512x2048) hz, View.ld_unit_zero (S := S1x512) hz]
  obtain ⟨-, -, -, -, -, -, b0, b1⟩ := idx_facts t
  funext j
  obtain ⟨p, q, rfl⟩ : ∃ (p : Fin 1024) (q : Fin 512), j = ix2 p q := ⟨j 0, j 1, eq_ix2 j⟩
  have hp : win0_3.index t (0 : Fin 2) * 1024 + p.val < 4096 := by have := p.isLt; omega
  have hq : win0_3.index t (1 : Fin 2) * 512 + q.val < 8192 := by have := q.isLt; omega
  show k0_pay1 (F := Ideal) (iblk m c 0 t) (wblk m c t) (iblk m c 2 t) (ix2 p q)
    = G (V m c main_arg0) (V m c main_arg1) (((cfg0.win 3).blk t).view.emb (ix2 p q))
  refine (block_eq_G (V m c main_arg0) (V m c main_arg1) (V m c main_v2) (V_bias_apply m c)
    (win0_3.index t (0 : Fin 2)) (win0_3.index t (1 : Fin 2)) p q hp hq (iblk m c 0 t) (wblk m c t) (iblk m c 2 t)
    (fun k => iblk0_apply m c t p k hp) (fun k => wblk_apply m c t q k hq) (iblk2_apply m c t q hq)).trans ?_
  refine congrArg (G (V m c main_arg0) (V m c main_arg1)) (funext fun a => Fin.ext ?_)
  match a with
  | ⟨0, _⟩ => show win0_3.index t (0 : Fin 2) * 1024 + p.val = win0_3.index t (0 : Fin 2) * 1024 + 1 * p.val; omega
  | ⟨1, _⟩ => show win0_3.index t (1 : Fin 2) * 512 + q.val = win0_3.index t (1 : Fin 2) * 512 + 1 * q.val; omega

/-- An index of the result is in point `t`'s block iff each coordinate is in the block's range on its axis. -/
theorem mem_blk (t : Fin cfg0.N) (i : S4096x8192.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v3).slice (win0_3.rect t)).set ↔ _
  rw [View.set_slice_whole, Rect.mem_set_unit]
  exact Iff.rfl

/-- Every entry (r, s) of the result lies in the block of the point with block index (r / 1024, s / 512). -/
theorem cover (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run is `G` of the two argument arrays. -/
theorem final (c : Dev nD) :
    (dats m 0 c).arrAt 3 cfg0.N = G (m ((c : Thread nD τ).loc main_arg0)) (m ((c : Thread nD τ).loc main_arg1)) := by
  rw [← V_main_arg0 m c, ← V_main_arg1 m c]
  exact (dats m 0 c).arrAt_eq_of_cover 3 (G (V m c main_arg0) (V m c main_arg1)) (fun t _ => flushed_eq m c t) cover

/-- The kernel program's run: it ends with the result array at `G` of the arguments, and the arguments as launched. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Linear.KVal

end
-- ==== Proof.RefIsLinear.lean ====
/-
  The reference program's result is the linear layer's function `G`: its slice of the first 2048 columns feeds the
  contraction, whose entry (p, q) is the sum over k of x[p, k] · w[q, k]; its slice of column 2048, reshaped to a
  vector and broadcast along the rows, is the bias w[q, 2048] added to every row.
-/
import proofs.«170033_j4114578669651_2_alg».proof.Proof.Gen.ReferenceIdeal.Read
import proofs.«170033_j4114578669651_2_alg».proof.Proof.LinearSpec

noncomputable section

namespace Cert.Linear.Ref

open Cert.ReferenceIdeal Cert.ReferenceIdeal.Read Cert.Linear
open Idealize.ShloMosaic Idealize.ShloMosaic.ValueIdx

theorem lidx_eq (p : Fin 4096) (q : Fin 8192) (k : Fin 2048) : lidx_main_v3 (ix2 p q) k = ix2 p k :=
  funext fun a => by match a with | ⟨0, _⟩ => rfl | ⟨1, _⟩ => rfl

theorem widx_eq (p : Fin 4096) (q : Fin 8192) (k : Fin 2048) : idx_main_v0 (ridx_main_v3 (ix2 p q) k) = ix2 q (wcol k) :=
  funext fun a => by match a with | ⟨0, _⟩ => rfl | ⟨1, _⟩ => rfl

theorem bidx_eq (p : Fin 4096) (q : Fin 8192) :
    idx_main_v1 (idx_main_v2 (idx_main_v4 (idx_main_v5 (ix2 p q)))) = ix2 q bcol :=
  funext fun a => by
    match a with
    | ⟨0, _⟩ => exact Fin.ext (Nat.div_one _)
    | ⟨1, _⟩ => rfl

/-- The reference's last stage, index by index, is `G` of the two arguments. -/
theorem val_eq_G (x0 : (⟨S4096x2048, .f32⟩ : BufTy).Contents (Elt Ideal)) (x1 : (⟨S8192x2049, .f32⟩ : BufTy).Contents (Elt Ideal)) :
    val_main_v6 (F := Ideal) x0 x1 = G x0 x1 := by
  funext i
  obtain ⟨p, q, rfl⟩ : ∃ (p : Fin 4096) (q : Fin 8192), i = ix2 p q := ⟨i 0, i 1, eq_ix2 i⟩
  rw [val_main_v6_apply, val_main_v3_apply, val_main_v5_apply, val_main_v4_apply, val_main_v2_apply, val_main_v1_apply,
    G_ix2]
  simp only [val_main_v0_apply, lidx_eq, widx_eq, bidx_eq]
  rfl

end Cert.Linear.Ref

end
-- ==== Proof.lean ====
/-
  The certificate of the linear layer out = x · Wᵀ + b, with W the first 2048 columns and b the last column of one
  (8192, 2049) parameter matrix, computed by a blocked kernel against an einsum reference.

  Over the extended reals both programs compute, at entry (p, q) of the (4096, 8192) result,
      Σ_{k < 2048} x[p, k] · w[q, k]  +  w[q, 2048].
  The kernel: grid point (i, j) takes rows 1024·i … of x, rows 512·j … of w (columns 0 … 2047) and entries 512·j … of
  the bias row, rounds the first two to bf16 (the identity on extended reals), contracts them over the feature axis
  into a zero accumulator, adds the bias row to every row, and stores the (1024, 512) block (i, j) of the result; the
  4 × 16 blocks tile the result. The reference slices w into the same two parts and contracts and adds on whole
  arrays. Both sides are the same sum of the same products in the same order of k, so no finiteness is used.

  The three frames: each program runs to the end without a fault and leaves x and w as launched. The kernel's
  idealization rewrote no operation, so there is nothing to preserve.
-/
import proofs.«170033_j4114578669651_2_alg».proof.Defs
import proofs.«170033_j4114578669651_2_alg».proof.Proof.Gen.Kernel
import proofs.«170033_j4114578669651_2_alg».proof.Proof.Gen.KernelIdeal
import proofs.«170033_j4114578669651_2_alg».proof.Proof.Gen.ReferenceIdeal
import proofs.«170033_j4114578669651_2_alg».proof.Proof.Gen.ReferenceIdeal.Run
import proofs.«170033_j4114578669651_2_alg».proof.Proof.Gen.ReferenceIdeal.Read
import proofs.«170033_j4114578669651_2_alg».proof.Proof.Gen.Pre_finite_inputs
import proofs.«170033_j4114578669651_2_alg».proof.Proof.FrameK
import proofs.«170033_j4114578669651_2_alg».proof.Proof.KernelValue
import proofs.«170033_j4114578669651_2_alg».proof.Proof.RefIsLinear

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame m ρ

/-- So does the kernel read over the extended reals. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on x and w, both programs end with the result at `G x w`. -/
theorem algebraic : Cert.algebraic_KernelIdeal_ReferenceIdeal := by
  intro m ρ m' ρ' _ hagree
  refine ⟨fun c => Cert.Linear.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Linear.KVal.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.Linear.Ref.val_eq_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
